-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1280000 : Shape := ⟨1, ![1280000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1280000 : S_.BroadcastsInDim S1280000 (![] : Fin 0 → Fin S1280000.rank)
  reducesTo_S1280000_S_d0 : S1280000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x256 .f32) (main_arg1 : IVec S1280000 32) (main_arg2 : IVec S1280000 32) (main_arg3 : FVec F S1280000 .f32) (main_arg4 : FVec F S256x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1280000 .f32 := Host.absf main_arg3
  let main_cst_0 : FVec F S_ .f32 := constant S_ .f32 0x7F800000#32
  let main_v5 : FVec F S1280000 .f32 := broadcastInDim S1280000 ![] bcast_S_S1280000 main_cst_0
  let main_v6 : IVec S1280000 1 := cmpf .olt main_v4 main_v5
  let main_c_1 : IVec S_ 1 := constantI S_ 1 1#1
  let main_v7 : IVec S_ 1 := (fun x v => Host.reduce IntOp.andi x v reducesTo_S1280000_S_d0 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x256 : Shape := ⟨2, ![100000, 256]⟩
abbrev S1280000 : Shape := ⟨1, ![1280000]⟩
abbrev S256x64 : Shape := ⟨2, ![256, 64]⟩
abbrev S64 : Shape := ⟨1, ![64]⟩
abbrev S100000x64 : Shape := ⟨2, ![100000, 64]⟩
abbrev S5000x256 : Shape := ⟨2, ![5000, 256]⟩
abbrev S5000x64 : Shape := ⟨2, ![5000, 64]⟩
abbrev S_ : Shape := ⟨0, ![]⟩
abbrev S1280000x1 : Shape := ⟨2, ![1280000, 1]⟩
abbrev S1280000x64 : Shape := ⟨2, ![1280000, 64]⟩
abbrev S1x64 : Shape := ⟨2, ![1, 64]⟩

abbrev nBuf : Space → Nat
  | .hbm => 25
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S1280000, .i32⟩
  | .hbm, ⟨2, _⟩ => ⟨S1280000, .i32⟩
  | .hbm, ⟨3, _⟩ => ⟨S1280000, .f32⟩
  | .hbm, ⟨4, _⟩ => ⟨S256x64, .f32⟩
  | .hbm, ⟨5, _⟩ => ⟨S64, .f32⟩
  | .hbm, ⟨6, _⟩ => ⟨S100000x64, .f32⟩
  | .hbm, ⟨7, _⟩ => ⟨S_, .i32⟩
  | .hbm, ⟨8, _⟩ => ⟨S1280000, .i32⟩
  | .hbm, ⟨9, _⟩ => ⟨S1280000, .i1⟩
  | .hbm, ⟨10, _⟩ => ⟨S_, .i32⟩
  | .hbm, ⟨11, _⟩ => ⟨S1280000, .i32⟩
  | .hbm, ⟨12, _⟩ => ⟨S1280000, .i32⟩
  | .hbm, ⟨13, _⟩ => ⟨S1280000, .i32⟩
  | .hbm, ⟨14, _⟩ => ⟨S1280000x1, .i32⟩
  | .hbm, ⟨15, _⟩ => ⟨S1280000x64, .f32⟩
  | .hbm, ⟨16, _⟩ => ⟨S1280000x1, .f32⟩
  | .hbm, ⟨17, _⟩ => ⟨S1280000x64, .f32⟩
  | .hbm, ⟨18, _⟩ => ⟨S1280000x64, .f32⟩
  | .hbm, ⟨19, _⟩ => ⟨S_, .f32⟩
  | .hbm, ⟨20, _⟩ => ⟨S100000x64, .f32⟩
  | .hbm, ⟨21, _⟩ => ⟨S1280000x1, .i32⟩
  | .hbm, ⟨22, _⟩ => ⟨S100000x64, .f32⟩
  | .hbm, ⟨23, _⟩ => ⟨S1x64, .f32⟩
  | .hbm, ⟨24, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S1280000x1_S1280000x64_0_1 : S1280000x1.BroadcastsInDim S1280000x64 (![0, 1] : Fin 2 → Fin S1280000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x256_S256x64_S5000x64_1_0_0_1_n_n_wf : DotDims.WF S5000x256 S256x64 S5000x64 [1] [0] [0] [1] [] []
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S1280000 : Shape := ⟨1, ![1280000]⟩
abbrev S256x64 : Shape := ⟨2, ![256, 64]⟩
abbrev S64 : Shape := ⟨1, ![64]⟩
abbrev S100000x64 : Shape := ⟨2, ![100000, 64]⟩
abbrev S_ : Shape := ⟨0, ![]⟩
abbrev S1280000x1 : Shape := ⟨2, ![1280000, 1]⟩
abbrev S1280000x64 : Shape := ⟨2, ![1280000, 64]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1280000, .i32⟩
  | .hbm, ⟨2, _⟩ => ⟨S1280000, .i32⟩
  | .hbm, ⟨3, _⟩ => ⟨S1280000, .f32⟩
  | .hbm, ⟨4, _⟩ => ⟨S256x64, .f32⟩
  | .hbm, ⟨5, _⟩ => ⟨S64, .f32⟩
  | .hbm, ⟨6, _⟩ => ⟨S100000x64, .f32⟩
  | .hbm, ⟨7, _⟩ => ⟨S_, .i32⟩
  | .hbm, ⟨8, _⟩ => ⟨S1280000, .i32⟩
  | .hbm, ⟨9, _⟩ => ⟨S1280000, .i1⟩
  | .hbm, ⟨10, _⟩ => ⟨S_, .i32⟩
  | .hbm, ⟨11, _⟩ => ⟨S1280000, .i32⟩
  | .hbm, ⟨12, _⟩ => ⟨S1280000, .i32⟩
  | .hbm, ⟨13, _⟩ => ⟨S1280000, .i32⟩
  | .hbm, ⟨14, _⟩ => ⟨S1280000x1, .i32⟩
  | .hbm, ⟨15, _⟩ => ⟨S1280000x64, .f32⟩
  | .hbm, ⟨16, _⟩ => ⟨S1280000x1, .f32⟩
  | .hbm, ⟨17, _⟩ => ⟨S1280000x64, .f32⟩
  | .hbm, ⟨18, _⟩ => ⟨S1280000x64, .f32⟩
  | .hbm, ⟨19, _⟩ => ⟨S_, .f32⟩
  | .hbm, ⟨20, _⟩ => ⟨S100000x64, .f32⟩
  | .hbm, ⟨21, _⟩ => ⟨S1280000x1, .i32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S1280000x1_S1280000x64_0_1 : S1280000x1.BroadcastsInDim S1280000x64 (![0, 1] : Fin 2 → Fin S1280000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x64_S100000x64_1_0_0_1_n_n_wf : DotDims.WF S100000x256 S256x64 S100000x64 [1] [0] [0] [1] [] []
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf

class Facts : Prop extends Facts₀ where

variable [Facts]
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.FeatureTransform.lean ====
/-
  The first launch: the dense feature transform.

  The launch walks twenty grid points. Point `t` stages rows `5000·t … 5000·t + 4999` of `x` (all 256 columns) and the
  whole of `w`, multiplies the two blocks on the matrix unit into a zero accumulator, and writes the 5000 × 64 result
  back as rows `5000·t …` of the output. Read on the extended reals — where narrowing an operand to sixteen bits changes
  nothing — entry `(p, q)` of a block's product is `Σ_k x₀ (p, k) · w (k, q)`, and the twenty row blocks tile the
  100000 × 64 output, so after the launch the output holds the one whole-array function

      product x w (r, q) = Σ_{k < 256} x (r, k) · w (k, q).

  Everything here is stated at the contents `V` the launch finds in the buffers, whatever they are.
-/
import proofs.«153755_j26912265076934_1_alg».proof.Proof.Gen.KernelIdeal.Frame
import proofs.«153755_j26912265076934_1_alg».proof.Proof.LibDot
import Idealize.ShloMosaic.Lib.Pipeline.Value
import Idealize.ShloMosaic.Lib.ValueIdx
import Idealize.ShloMosaic.PureOps.Ideal.Laws

noncomputable section

open scoped BigOperators

namespace Cert.KernelIdeal.FeatureTransform

open Cert.KernelIdeal Cert.KernelIdeal.Gen Idealize.ShloMosaic Idealize.ShloMosaic.TcCoe Idealize.SL.Sem
open Idealize.ShloMosaic.ValueIdx
open Idealize.ShloMosaic.Pipeline (Dat)

/-- The matrix product of a 100000 × 256 array with a 256 × 64 array, entry by entry. -/
def product (x : S100000x256.Idx → EReal) (w : S256x64.Idx → EReal) : S100000x64.Idx → EReal :=
  fun i => ∑ k : Fin 256, x (ix2 (⟨(i 0).val, (i 0).isLt⟩ : Fin 100000) k) * w (ix2 k (⟨(i 1).val, (i 1).isLt⟩ : Fin 64))

theorem zero_offsets : (![0, 0] : Fin 2 → Nat) = fun _ => 0 := funext fun a => by fin_cases a <;> rfl

/-- What one grid point stores, at `(p, q)` of its block: the product of the two staged blocks there. The narrowing of both
    operands is the identity on the extended reals, and the accumulator starts at zero. -/
theorem stored_apply (x0 : FVec Ideal S5000x256 .f32) (x1 : FVec Ideal S256x64 .f32) (p : Fin 5000) (q : Fin 64) :
    k0_pay1 (F := Ideal) x0 x1 (ix2 p q) = ∑ k : Fin 256, x0 (ix2 p k) * x1 (ix2 k q) := by
  unfold k0_pay1
  refine (Ideal.matmul_constant_zero_apply dot_S5000x256_S256x64_S5000x64_1_0_0_1_n_n none _ _ (ix2 p q)).trans ?_
  exact PlainDot.sum_eq dot_S5000x256_S256x64_S5000x64_1_0_0_1_n_n rfl rfl rfl rfl rfl rfl _ _ p q

/-- The stored entry as an entry of the whole-array product, given where the block's rows and columns sit in the arrays. -/
theorem stored_eq_product (X : S100000x256.Idx → EReal) (W : S256x64.Idx → EReal)
    (x0 : FVec Ideal S5000x256 .f32) (x1 : FVec Ideal S256x64 .f32) (p : Fin 5000) (q : Fin 64) (i : S100000x64.Idx)
    (h0 : ∀ k : Fin 256, x0 (ix2 p k) = X (ix2 (⟨(i 0).val, (i 0).isLt⟩ : Fin 100000) k))
    (h1 : ∀ k : Fin 256, x1 (ix2 k q) = W (ix2 k (⟨(i 1).val, (i 1).isLt⟩ : Fin 64))) :
    k0_pay1 (F := Ideal) x0 x1 (ix2 p q) = product X W i := by
  rw [stored_apply]
  unfold product
  exact Finset.sum_congr rfl fun k _ => by rw [h0 k, h1 k]

/-- Where the three windows' blocks sit at grid point `t`: the row blocks of `x` and of the output are both the `t`-th,
    every column block is the zeroth, and `w` is staged whole. Decided over the twenty points. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Row `p` of the block of `x` staged at point `t` is row `5000·t + p` of `x`. -/
theorem x_block_apply (c : Dev nD) (t : Fin cfg0.N) (p : Fin 5000) (k : Fin 256) (r : Fin 100000)
    (hr : r.val = t.val * 5000 + p.val) :
    (iblk0 V c 0 t : Vec Ideal S5000x256 .f32) (ix2 p k) = (V c main_arg0 : S100000x256.Idx → EReal) (ix2 r k) := by
  obtain ⟨e0, e1, -, -, -, -⟩ := block_indices t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

/-- The block of `w` staged at any point is `w`. -/
theorem w_block_apply (c : Dev nD) (t : Fin cfg0.N) (k : Fin 256) (q q' : Fin 64) (hq : q'.val = q.val) :
    (iblk0 V c 1 t : Vec Ideal S256x64 .f32) (ix2 k q) = (V c main_arg4 : S256x64.Idx → EReal) (ix2 k q') := by
  obtain ⟨-, -, e2, e3, -, -⟩ := block_indices t
  unfold iblk0
  rw [View.read_apply]
  show V c main_arg4 _ = V c main_arg4 _
  congr 1
  funext a
  apply Fin.ext
  match a with
  | ⟨0, _⟩ => show win0_1.index t (0 : Fin 2) * 256 + 1 * k.val = k.val; rw [e2]; omega
  | ⟨1, _⟩ => show win0_1.index t (1 : Fin 2) * 64 + 1 * q.val = q'.val; rw [e3, hq]; omega

/-- What point `t` writes back is block `t` of the whole-array product of the arrays the launch found. -/
theorem flushed_eq (c : Dev nD) (t : Fin cfg0.N) :
    (dat0 V c).flushed 2 t = ((cfg0.win 2).blk t).view.read (Elt Ideal) (product (V c main_arg0) (V c main_arg4)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x64) zero_offsets]
  obtain ⟨-, -, -, -, e4, e5⟩ := block_indices t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
    = product (V c main_arg0) (V c main_arg4) (((cfg0.win 2).blk t).view.emb (ix2 p q))
  refine stored_eq_product _ _ _ _ p q _ (fun k => x_block_apply V c t p k _ ?_) (fun k => w_block_apply V c t k q _ ?_)
  · show win0_2.index t (0 : Fin 2) * 5000 + 1 * p.val = t.val * 5000 + p.val
    rw [e4]; omega
  · show win0_2.index t (1 : Fin 2) * 64 + 1 * q.val = q.val
    rw [e5]; omega

/-- An index of the output is in point `t`'s block iff each coordinate is in the block's range on its axis. -/
theorem mem_block (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0).slice (win0_2.rect t)).set ↔ _
  rw [View.set_slice_whole, Rect.mem_set_unit]
  exact Iff.rfl

/-- The twenty row blocks tile the output: row `r` is in the block of point `r / 5000`. -/
theorem covered (i : S100000x64.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 64 := (i 1).isLt
  have ht : (i 0).val / 5000 < cfg0.N := by rw [hN]; omega
  obtain ⟨-, -, -, -, e4, e5⟩ := block_indices ⟨(i 0).val / 5000, ht⟩
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val
      ∧ (i 1).val < win0_2.index ⟨(i 0).val / 5000, ht⟩ (1 : Fin 2) * 64 + 64
    rw [e5]; omega

/-- After the launch the output array holds the whole-array product of the two arrays the launch found. -/
theorem output_eq (c : Dev nD) :
    (dat0 V c).arrAt 2 cfg0.N = product (V c main_arg0) (V c main_arg4) :=
  (dat0 V c).arrAt_eq_of_cover 2 (product (V c main_arg0) (V c main_arg4)) (fun t _ => flushed_eq V c t) covered

end Cert.KernelIdeal.FeatureTransform

end
-- ==== Proof.BiasClamp.lean ====
/-
  The second launch: add the bias row and clamp at zero.

  The launch walks twenty grid points. Point `t` stages rows `5000·t … 5000·t + 4999` of the summed messages (all 64
  columns) and the whole 1 × 64 bias row, spreads the row over the 5000 rows, adds, takes the maximum with zero, and
  writes the block back as rows `5000·t …` of the output. Entry `(p, q)` of what a point stores depends on one entry of
  each operand, so the twenty row blocks assemble into the one whole-array function

      shifted s b (r, q) = max (s (r, q) + b (0, q)) 0.

  Everything here is stated at the contents `V` the launch finds in the buffers, whatever they are.
-/
import proofs.«153755_j26912265076934_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BiasClamp

open Cert.KernelIdeal Cert.KernelIdeal.Gen Idealize.ShloMosaic Idealize.ShloMosaic.TcCoe Idealize.SL.Sem
open Idealize.ShloMosaic.ValueIdx
open Idealize.ShloMosaic.Pipeline (Dat)

/-- A 100000 × 64 array shifted by a 1 × 64 row and clamped below at zero, entry by entry. The zero is kept as the
    word both programs print for it. -/
def shifted (s : S100000x64.Idx → EReal) (b : S1x64.Idx → EReal) : S100000x64.Idx → EReal :=
  fun i => max (s i + b (ix2 (0 : Fin 1) (⟨(i 1).val, (i 1).isLt⟩ : Fin 64))) (Ideal.ofBits .f32 0x00000000#32)

theorem zero_offsets : (![0, 0] : Fin 2 → Nat) = fun _ => 0 := funext fun a => by fin_cases a <;> rfl

/-- What one grid point stores, at `(p, q)` of its block: the staged entry plus the bias row's entry of column `q`,
    clamped at zero. The two casts are to the operand's own shape; the row is spread over the rows. -/
theorem stored_apply (x0 : FVec Ideal S5000x64 .f32) (x1 : FVec Ideal S1x64 .f32) (p : Fin 5000) (q : Fin 64) :
    k1_pay1 (F := Ideal) x0 x1 (ix2 p q)
      = max (x0 (ix2 p q) + x1 (ix2 (0 : Fin 1) q)) (Ideal.ofBits .f32 0x00000000#32) := by
  unfold k1_pay1
  show max (shapeCast S5000x64 x0 shapeCasts_S5000x64_S5000x64 (ix2 p q)
      + broadcastTo S5000x64 (shapeCast S1x64 x1 shapeCasts_S1x64_S1x64) broadcasts_S1x64_S5000x64 (ix2 p q)) _ = _
  rw [shapeCast_self, broadcastTo_1b_ab_apply, shapeCast_self]
  rfl

/-- The stored entry as an entry of the whole-array function, given where the block's rows and columns sit. -/
theorem stored_eq_shifted (S : S100000x64.Idx → EReal) (B : S1x64.Idx → EReal)
    (x0 : FVec Ideal S5000x64 .f32) (x1 : FVec Ideal S1x64 .f32) (p : Fin 5000) (q : Fin 64) (i : S100000x64.Idx)
    (h0 : x0 (ix2 p q) = S i)
    (h1 : x1 (ix2 (0 : Fin 1) q) = B (ix2 (0 : Fin 1) (⟨(i 1).val, (i 1).isLt⟩ : Fin 64))) :
    k1_pay1 (F := Ideal) x0 x1 (ix2 p q) = shifted S B i := by
  rw [stored_apply, h0, h1]
  rfl

/-- Where the three windows' blocks sit at grid point `t`: the row blocks of the input and of the output are both the
    `t`-th, every column block is the zeroth, and the bias row is staged whole. Decided over the twenty points. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- Entry `(p, q)` of the input block staged at point `t` is entry `(5000·t + p, q)` of the input array. -/
theorem in_block_apply (c : Dev nD) (t : Fin cfg1.N) (p : Fin 5000) (q : Fin 64) (i : S100000x64.Idx)
    (h0 : (i 0).val = t.val * 5000 + p.val) (h1 : (i 1).val = q.val) :
    (iblk1 V c 0 t : Vec Ideal S5000x64 .f32) (ix2 p q) = (V c main_v13 : S100000x64.Idx → EReal) i := by
  obtain ⟨e0, e1, -, -, -, -⟩ := block_indices t
  unfold iblk1
  rw [View.read_apply]
  show V c main_v13 _ = V c main_v13 _
  congr 1
  funext a
  apply Fin.ext
  match a with
  | ⟨0, _⟩ => show win1_0.index t (0 : Fin 2) * 5000 + 1 * p.val = (i 0).val; rw [e0, h0]; omega
  | ⟨1, _⟩ => show win1_0.index t (1 : Fin 2) * 64 + 1 * q.val = (i 1).val; rw [e1, h1]; omega

/-- The bias row staged at any point is the bias row. -/
theorem row_block_apply (c : Dev nD) (t : Fin cfg1.N) (q q' : Fin 64) (hq : q'.val = q.val) :
    (iblk1 V c 1 t : Vec Ideal S1x64 .f32) (ix2 (0 : Fin 1) q) = (V c main_v14 : S1x64.Idx → EReal) (ix2 (0 : Fin 1) q') := by
  obtain ⟨-, -, e2, e3, -, -⟩ := block_indices t
  unfold iblk1
  rw [View.read_apply]
  show V c main_v14 _ = V c main_v14 _
  congr 1
  funext a
  apply Fin.ext
  match a with
  | ⟨0, _⟩ => show win1_1.index t (0 : Fin 2) * 1 + 1 * 0 = 0; rw [e2]
  | ⟨1, _⟩ => show win1_1.index t (1 : Fin 2) * 64 + 1 * q.val = q'.val; rw [e3, hq]; omega

/-- What point `t` writes back is block `t` of the whole-array function of the arrays the launch found. -/
theorem flushed_eq (c : Dev nD) (t : Fin cfg1.N) :
    (dat1 V c).flushed 2 t = ((cfg1.win 2).blk t).view.read (Elt Ideal) (shifted (V c main_v13) (V c main_v14)) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S1x64) zero_offsets]
  obtain ⟨-, -, -, -, e4, e5⟩ := block_indices t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (ix2 p q)
    = shifted (V c main_v13) (V c main_v14) (((cfg1.win 2).blk t).view.emb (ix2 p q))
  refine stored_eq_shifted _ _ _ _ p q _ (in_block_apply V c t p q _ ?_ ?_) (row_block_apply V c t q _ ?_)
  · show win1_2.index t (0 : Fin 2) * 5000 + 1 * p.val = t.val * 5000 + p.val
    rw [e4]; omega
  · show win1_2.index t (1 : Fin 2) * 64 + 1 * q.val = q.val
    rw [e5]; omega
  · show win1_2.index t (1 : Fin 2) * 64 + 1 * q.val = q.val
    rw [e5]; omega

/-- An index of the output is in point `t`'s block iff each coordinate is in the block's range on its axis. -/
theorem mem_block (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v15).slice (win1_2.rect t)).set ↔ _
  rw [View.set_slice_whole, Rect.mem_set_unit]
  exact Iff.rfl

/-- The twenty row blocks tile the output: row `r` is in the block of point `r / 5000`. -/
theorem covered (i : S100000x64.Idx) :
    ∃ t : Fin cfg1.N, (cfg1.win 2).flush t = true ∧ i ∈ ((cfg1.win 2).blk t).view.set := by
  have hN : cfg1.N = 20 := N_1
  have hi0 : (i 0).val < 100000 := (i 0).isLt
  have hi1 : (i 1).val < 64 := (i 1).isLt
  have ht : (i 0).val / 5000 < cfg1.N := by rw [hN]; omega
  obtain ⟨-, -, -, -, e4, e5⟩ := block_indices ⟨(i 0).val / 5000, ht⟩
  refine ⟨⟨(i 0).val / 5000, ht⟩, flush1_2 _, ?_⟩
  rw [mem_block]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 64 ≤ (i 1).val
      ∧ (i 1).val < win1_2.index ⟨(i 0).val / 5000, ht⟩ (1 : Fin 2) * 64 + 64
    rw [e5]; omega

/-- After the launch the output array holds the whole-array function of the two arrays the launch found. -/
theorem output_eq (c : Dev nD) :
    (dat1 V c).arrAt 2 cfg1.N = shifted (V c main_v13) (V c main_v14) :=
  (dat1 V c).arrAt_eq_of_cover 2 (shifted (V c main_v13) (V c main_v14)) (fun t _ => flushed_eq V c t) covered

end Cert.KernelIdeal.BiasClamp

end
-- ==== Proof.WholeRun.lean ====
/-
  The kernel's whole run, with its result named.

  The program is three segments: the feature-transform launch, a stretch of seventeen host operations, and the
  bias-and-clamp launch. Every unscoped buffer's contents are followed through the three segments as a fold from the
  launch memory; at the end the result buffer holds what the second launch's write-backs left, which is the
  whole-array function `shifted` of the two arrays that launch found. Those are what the host stretch computed: the
  sparse aggregation (`aggregate`: index normalisation, row gather, scaling by the edge values, scatter-add into zeros)
  of the first launch's output, and the bias vector given a unit row axis. The first launch's output is the
  whole-array `product` of the two arguments it staged. Composed:

      result = shifted (aggregate (product x w) rows cols vals) (bias as a 1 × 64 row).
-/
import proofs.«153755_j26912265076934_1_alg».proof.Proof.Gen.KernelIdeal.Frame
import proofs.«153755_j26912265076934_1_alg».proof.Proof.FeatureTransform
import proofs.«153755_j26912265076934_1_alg».proof.Proof.BiasClamp
import Idealize.ShloMosaic.Lib.StableHlo.Run

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The sparse aggregation, as one function -/

/-- The host stretch between the two launches, as a function of the transformed features `P`, the edge lists and
    the edge values: a negative source index is shifted up by the number of nodes, row `cols e` of `P` is gathered for
    every edge `e`, scaled by `vals e`, and added into row `rows e` of a zero array. The same operations, with the same
    literals, stand in the reference; nothing in this certificate looks inside. -/
def aggregate {F : FTy → Type} [FloatOps F] (P : (⟨S100000x64, .f32⟩ : BufTy).Contents (Elt F))
    (rows cols : (⟨S1280000, .i32⟩ : BufTy).Contents (Elt F)) (vals : (⟨S1280000, .f32⟩ : BufTy).Contents (Elt F)) :
    (⟨S100000x64, .f32⟩ : BufTy).Contents (Elt F) :=
  Host.scatterAdd (F := F) scatter_S100000x64_S1280000x1_S1280000x64_1_0_0_1
    (broadcastInDim S100000x64 ![] bcast_S_S100000x64 (constant (F := F) S_ .f32 0x00000000#32))
    (broadcastInDim S1280000x1 ![0] bcast_S1280000_S1280000x1_0 rows)
    (mulf (F := F)
      (Host.gather gather_S100000x64_S1280000x1_S1280000x64_1_0_n_n_0_1_164 P
        (broadcastInDim S1280000x1 ![0] bcast_S1280000_S1280000x1_0
          (select (cmpi .slt cols (broadcastInDim S1280000 ![] bcast_S_S1280000 (constantI S_ 32 0#32)))
            (addi cols (broadcastInDim S1280000 ![] bcast_S_S1280000 (constantI S_ 32 100000#32))) cols)))
      (broadcastInDim S1280000x64 ![0, 1] bcast_S1280000x1_S1280000x64_0_1
        (broadcastInDim S1280000x1 ![0] bcast_S1280000_S1280000x1_0 vals)))

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run: every buffer ends at the fold's last contents -/

set_option backward.isDefEq.respectTransparency.types false in
/-- Every weakly fair execution of the program terminates, nothing faulting, with the result buffer at the fold's
    last contents there and the six arguments as launched. The three segments are run by the several-launch frame
    theorem; each unscoped buffer of the final state is read against the last thread state. -/
theorem run_named : θ_run defs (onTc (τ := τ) (main (F := F))) ⟨m, fun _ => 0, ρ⟩ (fun r => ∀ c : Dev nD,
      r.2.mem ((c.tc : Thread nD τ).loc main_v15) = W3 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v15 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

/-! ## The fold read back at the result buffer, on the extended reals -/

section Value

open Cert.KernelIdeal.FeatureTransform Cert.KernelIdeal.BiasClamp

/-- What the kernel computes, as one function of its six arguments: the bias vector as a 1 × 64 row, added to the
    sparse aggregation of the matrix product, clamped below at zero. -/
def result (x : S100000x256.Idx → EReal) (rows cols : (⟨S1280000, .i32⟩ : BufTy).Contents (Elt Ideal))
    (vals : S1280000.Idx → EReal) (w : S256x64.Idx → EReal) (b : S64.Idx → EReal) : S100000x64.Idx → EReal :=
  shifted (aggregate (F := Ideal) (product x w) rows cols vals) (shapeCast S1x64 b shapeCasts_S64_S1x64)

variable (m : (ℓ : Loc nD τ sig) → Buf (Elt Ideal) ℓ) (ρ : Dev nD → PrngReg)

/-- After the first launch its output buffer holds the product of the two arguments it staged, which no earlier
    segment had touched. -/
theorem transformed_eq (c : Dev nD) :
    W1 m ρ c (Proc.devRef .tc main_v0) = product (m ((c.tc : Thread nD τ).loc main_arg0)) (m ((c.tc : Thread nD τ).loc main_arg4)) :=
  (W1_arr m ρ c 2).trans (FeatureTransform.output_eq (V0 m ρ) c)

/-- A buffer that is none of the first launch's three arrays holds after it what it held at the start. -/
theorem untouched (c : Dev nD) (b : Ref sig .tc) (hb : ∀ w, Pipeline.arrRef spec0 w ≠ b) :
    W1 m ρ c (Proc.devRef .tc b) = m ((c : Thread nD τ).loc b) :=
  (W1_of_ne m ρ c b hb).trans rfl

/-- Entering the second launch, its input array holds the sparse aggregation of the product: the host stretch's
    operations composed, each operand read back to the launch memory or to the first launch's output. -/
theorem messages_eq (c : Dev nD) :
    V2 m ρ c main_v13 = aggregate (F := Ideal) (product (m ((c.tc : Thread nD τ).loc main_arg0)) (m ((c.tc : Thread nD τ).loc main_arg4)))
      (m ((c.tc : Thread nD τ).loc main_arg1)) (m ((c.tc : Thread nD τ).loc main_arg2)) (m ((c.tc : Thread nD τ).loc main_arg3)) := by
  have e : V2 m ρ c main_v13 = aggregate (F := Ideal) (W1 m ρ c (Proc.devRef .tc main_v0))
      (W1 m ρ c (Proc.devRef .tc main_arg1)) (W1 m ρ c (Proc.devRef .tc main_arg2)) (W1 m ρ c (Proc.devRef .tc main_arg3)) := by
    show StableHlo.after hostOps1 (W1 m ρ c) (Proc.devRef .tc main_v13) = _
    after_results
    rfl
  rw [e, transformed_eq m ρ c, untouched m ρ c main_arg1 (by decide), untouched m ρ c main_arg2 (by decide),
    untouched m ρ c main_arg3 (by decide)]

/-- Entering the second launch, its row operand holds the bias vector with a unit row axis in front. -/
theorem row_eq (c : Dev nD) :
    V2 m ρ c main_v14 = shapeCast S1x64 (m ((c.tc : Thread nD τ).loc main_arg5)) shapeCasts_S64_S1x64 := by
  have e : V2 m ρ c main_v14 = shapeCast S1x64 (W1 m ρ c (Proc.devRef .tc main_arg5)) shapeCasts_S64_S1x64 := by
    show StableHlo.after hostOps1 (W1 m ρ c) (Proc.devRef .tc main_v14) = _
    after_results
    rfl
  rw [e, untouched m ρ c main_arg5 (by decide)]

/-- The fold's last contents at the result buffer: the second launch's whole-array function of the two arrays it
    found, which are the aggregation of the product and the bias row. -/
theorem result_eq (c : Dev nD) :
    W3 m ρ c (Proc.devRef .tc main_v15) = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  refine (W3_arr m ρ c 2).trans ((BiasClamp.output_eq (V2 m ρ) c).trans ?_)
  rw [messages_eq m ρ c, row_eq m ρ c]
  rfl

/-- The kernel's run on the extended reals: the result buffer ends at `result` of the six arguments as launched, and
    the arguments end unchanged. -/
theorem run : θ_run defs (onTc (τ := τ) (main (F := Ideal))) ⟨m, fun _ => 0, ρ⟩ (fun r => ∀ c : Dev nD,
      r.2.mem ((c.tc : Thread nD τ).loc main_v15) = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_named m ρ)

end Value

end Cert.KernelIdeal.WholeRun

end
-- ==== Proof.SameFunction.lean ====
/-
  The reference computes the same function.

  Read one operation at a time, the reference is: the host's `dot_general` of `x` and `w`; the sparse aggregation of it
  (the very operations, literals included, that stand between the kernel's two launches); the bias vector given a unit
  row axis and spread over the 100000 rows; a sum; and a maximum with a zero splat. On the extended reals the
  `dot_general` at `(r, q)` is `Σ_k x (r, k) · w (k, q)`, the kernel's `product`; the spread bias at `(r, q)` is `b q`, which
  is also what the kernel's 1 × 64 row holds at `(0, q)`; and both zeros are the same word. So the reference's result is
  `result` of the same six arrays, entry by entry. No law of arithmetic beyond the two programs' shared operations is
  used, so nothing is asked of the inputs.
-/
import proofs.«153755_j26912265076934_1_alg».proof.Proof.WholeRun
import proofs.«153755_j26912265076934_1_alg».proof.Proof.Gen.ReferenceIdeal.Read
import Idealize.ShloMosaic.Lib.ValueIdx
import Idealize.ShloMosaic.Lib.ValueLayout

noncomputable section

open scoped BigOperators

namespace Cert.ReferenceIdeal.SameFunction

open Idealize.ShloMosaic Idealize.ShloMosaic.ValueIdx
open Cert.ReferenceIdeal.Read
open Cert.KernelIdeal.FeatureTransform (product)
open Cert.KernelIdeal.BiasClamp (shifted)
open Cert.KernelIdeal.WholeRun (aggregate result)

/-- The host's `dot_general` is the whole-array product: at `(r, q)` both are the sum over `k` of `x (r, k) · w (k, q)`. -/
theorem product_eq (x0 : (⟨Cert.ReferenceIdeal.S100000x256, .f32⟩ : BufTy).Contents (Elt Ideal)) (x4 : (⟨Cert.ReferenceIdeal.S256x64, .f32⟩ : BufTy).Contents (Elt Ideal)) :
    val_main_v0 (F := Ideal) x0 x4 = product x0 x4 := by
  funext j
  rw [val_main_v0_apply]
  unfold product
  refine Finset.sum_congr rfl fun k _ => ?_
  have hl : lidx_main_v0 j k = ix2 (⟨(j 0).val, (j 0).isLt⟩ : Fin 100000) k :=
    funext fun a => match a with | ⟨0, _⟩ => rfl | ⟨1, _⟩ => rfl
  have hr : ridx_main_v0 j k = ix2 k (⟨(j 1).val, (j 1).isLt⟩ : Fin 64) :=
    funext fun a => match a with | ⟨0, _⟩ => rfl | ⟨1, _⟩ => rfl
  rw [hl, hr]

/-- The reference's stretch from the index normalisation to the scatter-add is the kernel's, operation for operation. -/
theorem aggregate_eq (x0 : (⟨Cert.ReferenceIdeal.S100000x256, .f32⟩ : BufTy).Contents (Elt Ideal)) (x1 x2 : (⟨Cert.ReferenceIdeal.S1280000, .i32⟩ : BufTy).Contents (Elt Ideal))
    (x3 : (⟨Cert.ReferenceIdeal.S1280000, .f32⟩ : BufTy).Contents (Elt Ideal)) (x4 : (⟨Cert.ReferenceIdeal.S256x64, .f32⟩ : BufTy).Contents (Elt Ideal)) :
    val_main_v13 (F := Ideal) x0 x1 x2 x3 x4 = aggregate (F := Ideal) (val_main_v0 (F := Ideal) x0 x4) x1 x2 x3 := rfl

/-- The reference's result is the kernel's function of the same six arrays. -/
theorem reference_eq (x0 : (⟨Cert.ReferenceIdeal.S100000x256, .f32⟩ : BufTy).Contents (Elt Ideal)) (x1 x2 : (⟨Cert.ReferenceIdeal.S1280000, .i32⟩ : BufTy).Contents (Elt Ideal))
    (x3 : (⟨Cert.ReferenceIdeal.S1280000, .f32⟩ : BufTy).Contents (Elt Ideal)) (x4 : (⟨Cert.ReferenceIdeal.S256x64, .f32⟩ : BufTy).Contents (Elt Ideal)) (x5 : (⟨Cert.ReferenceIdeal.S64, .f32⟩ : BufTy).Contents (Elt Ideal)) :
    val_main_v17 (F := Ideal) x0 x1 x2 x3 x4 x5 = result x0 x1 x2 x3 x4 x5 := by
  funext i
  rw [val_main_v17_apply, val_main_v16_apply, val_main_v15_apply, val_main_v14_apply, val_main_call0_v0_apply,
    val_main_call0_cst_apply, aggregate_eq, product_eq]
  unfold result shifted
  rw [shapeCast_a_1a_apply]
  have hx : idx_main_v14 (idx_main_v15 i) = ix1 (⟨(i 1).val, (i 1).isLt⟩ : Fin 64) :=
    funext fun a => match a with | ⟨0, _⟩ => rfl
  rw [hx]
  rfl

end Cert.ReferenceIdeal.SameFunction

end
-- ==== Proof.lean ====
/-
  A graph-convolution layer: `relu (A · (x · w) + b)`, with the adjacency `A` given as 1280000 coordinate-format edges
  over 100000 nodes, `x` of 256 features per node and `w` taking them to 64.

  The kernel computes `x · w` in a first launch tiled over twenty row blocks (sixteen-bit operands, a zero accumulator),
  aggregates on the host — for each edge, the source node's transformed row scaled by the edge value, summed into the
  destination node's row —, and in a second launch, tiled the same way, adds the bias as a 1 × 64 row and clamps at
  zero. The reference does the product with the host's `dot_general`, aggregates with the same host operations, adds the
  bias spread over all rows and takes the maximum with zero.

  On the extended reals the two compute one function, entry by entry:

      out (r, q) = max ( aggregate (fun (r', q') => Σ_k x (r', k) · w (k, q')) (r, q) + b q ) 0.

  The narrowing of the matrix unit's operands is the identity there, the block product into zeros is the plain sum, the
  twenty row blocks of each launch tile its output, and the aggregation is literally shared. Nothing needs the inputs to
  be finite: no term is cancelled, distributed or moved across a sum.

  `FeatureTransform` and `BiasClamp` read each launch's output array as one function of the arrays it found;
  `WholeRun` runs the program and composes them through the host stretch; `SameFunction` reads the reference's term,
  one operation at a time, as that function. The three frames are the generated ones (the reference's is its generated
  run with the result dropped); the idealization rewrote nothing, so there is nothing to preserve.
-/
import proofs.«153755_j26912265076934_1_alg».proof.Defs
import proofs.«153755_j26912265076934_1_alg».proof.Proof.Gen.Kernel
import proofs.«153755_j26912265076934_1_alg».proof.Proof.Gen.Kernel.Skeleton
import proofs.«153755_j26912265076934_1_alg».proof.Proof.Gen.Kernel.Launch
import proofs.«153755_j26912265076934_1_alg».proof.Proof.Gen.Kernel.Points
import proofs.«153755_j26912265076934_1_alg».proof.Proof.Gen.Kernel.Frame
import proofs.«153755_j26912265076934_1_alg».proof.Proof.Gen.KernelIdeal
import proofs.«153755_j26912265076934_1_alg».proof.Proof.Gen.KernelIdeal.Skeleton
import proofs.«153755_j26912265076934_1_alg».proof.Proof.Gen.KernelIdeal.Launch
import proofs.«153755_j26912265076934_1_alg».proof.Proof.Gen.KernelIdeal.Points
import proofs.«153755_j26912265076934_1_alg».proof.Proof.Gen.KernelIdeal.Frame
import proofs.«153755_j26912265076934_1_alg».proof.Proof.Gen.ReferenceIdeal
import proofs.«153755_j26912265076934_1_alg».proof.Proof.Gen.ReferenceIdeal.Run
import proofs.«153755_j26912265076934_1_alg».proof.Proof.Gen.ReferenceIdeal.Read
import proofs.«153755_j26912265076934_1_alg».proof.Proof.Gen.Pre_finite_inputs
import proofs.«153755_j26912265076934_1_alg».proof.Proof.WholeRun
import proofs.«153755_j26912265076934_1_alg».proof.Proof.SameFunction
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the six arguments, the kernel's result buffer ends at `result` of them (its whole run)
    and the reference's at its operations' composed term of them (its generated run), which is `result` of them too. -/
theorem algebraic : Cert.algebraic_KernelIdeal_ReferenceIdeal := by
  intro m ρ m' ρ' _ hagree
  refine ⟨fun c => Cert.KernelIdeal.WholeRun.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.WholeRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.SameFunction.reference_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
